-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S8192x4096 : Shape := ⟨2, ![8192, 4096]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x256 .f32) (main_arg1 : FVec F S4096x256 .f32) (main_arg2 : FVec F S8192x4096 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S8192x256 : Shape := ⟨2, ![8192, 256]⟩
abbrev S4096x256 : Shape := ⟨2, ![4096, 256]⟩
abbrev S8192x4096 : Shape := ⟨2, ![8192, 4096]⟩
abbrev S512x256 : Shape := ⟨2, ![512, 256]⟩
abbrev S512x4096 : Shape := ⟨2, ![512, 4096]⟩
abbrev S512x1 : Shape := ⟨2, ![512, 1]⟩
abbrev S512x4095 : Shape := ⟨2, ![512, 4095]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .hbm, ⟨3, _⟩ => ⟨S8192x4096, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  inb_S512x4096_S512x4096_0_0 : ∀ a, (![0, 0] : Fin 2 → Nat) a + S512x4096.size a ≤ S512x4096.size a
  h_S512x4096 : 0 < S512x4096.numel
  slices_S512x4096_o0_4095_S512x1 : S512x4096.Slices ![0, 4095] S512x1
  slices_S512x4096_o0_0_S512x4095 : S512x4096.Slices ![0, 0] S512x4095
  concatenates_S512x1_S512x4095_S512x4096_d1 : Shape.Concatenates [S512x1, S512x4095] S512x4096 1
  natLt_1_32 : 1 < 32
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S8192x4096 : Shape := ⟨2, ![8192, 4096]⟩
abbrev S8192x1 : Shape := ⟨2, ![8192, 1]⟩
abbrev S8192x4095 : Shape := ⟨2, ![8192, 4095]⟩
abbrev S256x4096 : Shape := ⟨2, ![256, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .hbm, ⟨3, _⟩ => ⟨S8192x1, .f32⟩
  | .hbm, ⟨4, _⟩ => ⟨S8192x4095, .f32⟩
  | .hbm, ⟨5, _⟩ => ⟨S8192x4096, .f32⟩
  | .hbm, ⟨6, _⟩ => ⟨S256x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S8192x4096_S8192x1_0_4095 : S8192x4096.Slices ![0, 4095] S8192x1
  slices_S8192x4096_S8192x4095_0_0 : S8192x4096.Slices ![0, 0] S8192x4095
  concatenates_S8192x1_S8192x4095_S8192x4096_d1 : Shape.Concatenates [S8192x1, S8192x4095] S8192x4096 1
  transposes_S4096x256_S256x4096_1_0 : S4096x256.Transposes [1, 0] S256x4096
  bcast_S_S8192x4096 : S_.BroadcastsInDim S8192x4096 (![] : Fin 0 → Fin S8192x4096.rank)
  dot_S8192x256_S256x4096_S8192x4096_1_0_0_1_n_n_wf : DotDims.WF S8192x256 S256x4096 S8192x4096 [1] [0] [0] [1] [] []

variable [Facts₀]

def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf

class Facts : Prop extends Facts₀ where

variable [Facts]
-- ==== Proof.Spike.lean ====
/-
  A reservoir step that thresholds its pre-activation. For an input row `x r`, weights `w` and a state row `s r`,
  the pre-activation at `(r, c)` is

      drive r c = (∑ k, x r k · w c k) + s r (c - 1 mod 4096),

  the state row shifted circularly by one column. The output is the spike indicator `1` if `0 < drive r c`, else `0`.
  One program thresholds `drive` itself, the other thresholds `tanh (drive)`; since `tanh` is strictly increasing
  with `tanh 0 = 0` (and is `±1` at `±∞` on the extended reals) the two thresholds agree at EVERY extended real,
  so no finiteness of the inputs is needed. The indicator is produced from the comparison bit either by a
  zero-extension to 32 bits read as a signed integer, or by reading the single bit as an unsigned integer: both give
  the real `1` for a set bit and `0` for a clear one.
-/
import Idealize.ShloMosaic.PureOps.Ideal
import Idealize.ShloMosaic.PureOps.Ideal.Laws
import Idealize.ShloMosaic.Lib.ValueIdx
import Mathlib.Analysis.SpecialFunctions.Trigonometric.DerivHyp

noncomputable section

namespace Cert.Reservoir

open Idealize.ShloMosaic Idealize.ShloMosaic.ValueIdx

/-- The column a circular shift by one reads at column `c`: `c - 1`, and the last column when `c = 0`. -/
def prevCol (c : Fin 4096) : Fin 4096 := ⟨(c.val + 4095) % 4096, Nat.mod_lt _ (by decide)⟩

theorem prevCol_zero (c : Fin 4096) (h : c.val = 0) : (prevCol c).val = 4095 := by
  show (c.val + 4095) % 4096 = 4095
  omega

theorem prevCol_succ (c : Fin 4096) (h : 1 ≤ c.val) : (prevCol c).val + 1 = c.val := by
  show (c.val + 4095) % 4096 + 1 = c.val
  have := c.isLt
  omega

/-- The pre-activation at row `r`, column `c`: the row of `x` against the row `c` of the weights, plus the state
    one column to the left (circularly). -/
def drive (x : (⟨2, ![8192, 256]⟩ : Shape).Idx → EReal) (w : (⟨2, ![4096, 256]⟩ : Shape).Idx → EReal)
    (s : (⟨2, ![8192, 4096]⟩ : Shape).Idx → EReal) (r : Fin 8192) (c : Fin 4096) : EReal :=
  (∑ k : Fin 256, x (ix2 r k) * w (ix2 c k)) + s (ix2 r (prevCol c))

/-- The spike indicator of a pre-activation. -/
def fire (v : EReal) : EReal := if 0 < v then 1 else 0

/-- The whole output array: the spike indicator of the pre-activation, index by index. -/
def spike (x : (⟨2, ![8192, 256]⟩ : Shape).Idx → EReal) (w : (⟨2, ![4096, 256]⟩ : Shape).Idx → EReal)
    (s : (⟨2, ![8192, 4096]⟩ : Shape).Idx → EReal) : (⟨2, ![8192, 4096]⟩ : Shape).Idx → EReal :=
  fun i => fire (drive x w s (i 0) (i 1))

theorem spike_ix2 (x : (⟨2, ![8192, 256]⟩ : Shape).Idx → EReal) (w : (⟨2, ![4096, 256]⟩ : Shape).Idx → EReal)
    (s : (⟨2, ![8192, 4096]⟩ : Shape).Idx → EReal) (r : Fin 8192) (c : Fin 4096) :
    spike x w s (ix2 r c) = fire (drive x w s r c) := rfl

/-! ## The threshold commutes with `tanh` -/

/-- `tanh` on the extended reals is positive exactly where its argument is: on the reals `tanh = sinh / cosh` with
    `cosh > 0` and `sinh v > 0 ↔ v > 0`; at `-∞` it is `-1` and at `+∞` it is `1`. -/
theorem tanh_pos_iff (v : EReal) : 0 < Ideal.tanh v ↔ 0 < v := by
  induction v using EReal.rec with
  | bot => simp
  | top => simp
  | coe r =>
    rw [Ideal.tanh_coe, EReal.coe_pos, EReal.coe_pos, Real.tanh_eq_sinh_div_cosh,
      div_pos_iff_of_pos_right (Real.cosh_pos r), Real.sinh_pos_iff]

/-! ## The two ways a comparison bit becomes a float -/

/-- The comparison bit `0 < v`. -/
theorem cmp_ogt_zero (v : EReal) : Ideal.cmp .ogt v 0 = if 0 < v then 1#1 else 0#1 := by
  unfold Ideal.cmp
  by_cases h : 0 < v
  · simp [h]
  · simp [h]

/-- Zero-extended to 32 bits and read as a signed integer. -/
theorem signed_of_bit (b : BitVec 1) : (((b.setWidth 32).toInt : ℝ) : EReal) = if b = 1#1 then 1 else 0 := by
  rcases BitVec.eq_zero_or_eq_one b with h | h <;> subst h <;> simp

/-- Read as an unsigned integer. -/
theorem unsigned_of_bit (b : BitVec 1) : (((b.toNat : ℕ) : ℝ) : EReal) = if b = 1#1 then 1 else 0 := by
  rcases BitVec.eq_zero_or_eq_one b with h | h <;> subst h <;> simp

/-- Thresholding the pre-activation, the bit widened and read signed: the spike indicator. -/
theorem fire_of_threshold (v : EReal) :
    ((((Ideal.cmp .ogt v 0).setWidth 32).toInt : ℝ) : EReal) = fire v := by
  rw [signed_of_bit, cmp_ogt_zero]
  unfold fire
  by_cases h : 0 < v
  · simp [h]
  · simp [h]

/-- Thresholding `tanh` of the pre-activation, the bit read unsigned: the same spike indicator. -/
theorem fire_of_tanh_threshold (v : EReal) :
    ((((Ideal.cmp .ogt (Ideal.tanh v) 0).toNat : ℕ) : ℝ) : EReal) = fire v := by
  rw [unsigned_of_bit, cmp_ogt_zero]
  unfold fire
  by_cases h : 0 < v
  · simp [h, (tanh_pos_iff v).mpr h]
  · simp [h, mt (tanh_pos_iff v).mp h]

end Cert.Reservoir

end
-- ==== Proof.RefSide.lean ====
/-
  The reference computes the spike array of `Spike.lean`. Its state operand is the state array shifted circularly by
  one column, written as the concatenation, along the columns, of the last column and of the first 4095 columns: at
  column `0` the concatenation reads the first piece, i.e. column 4095 of the state; at a column `c ≥ 1` it reads the
  second piece at `c - 1`. The matrix product contracts the row of `x` with a row of the weights through the
  transposed weight array, so its `(r, c)` entry is `∑ k, x r k · w c k`. The threshold is taken after `tanh`, and
  the comparison bit is read unsigned: the indicator of `0 < drive r c` (`fire_of_tanh_threshold`).
-/
import proofs.«172204_j7430293422555_2_alg».proof.Proof.Gen.ReferenceIdeal.Read
import proofs.«172204_j7430293422555_2_alg».proof.Proof.Spike

noncomputable section

namespace Cert.Reservoir

open Idealize.ShloMosaic Idealize.ShloMosaic.ValueIdx Cert.ReferenceIdeal Cert.ReferenceIdeal.Gen Cert.ReferenceIdeal.Read

/-- The shifted state at `(r, c)` is the state at `(r, c - 1 mod 4096)`. -/
theorem shifted_apply (x2 : S8192x4096.Idx → EReal) (r : Fin 8192) (c : Fin 4096) :
    val_main_v0 (F := Ideal) x2 (ix2 r c) = x2 (ix2 r (prevCol c)) := by
  unfold val_main_v0
  by_cases hc : c.val = 0
  · -- column 0 falls in the one-column piece: the state's last column
    refine (concatenate_pair_apply_left (t := S8192x4096) (s₁ := S8192x1) (s₂ := S8192x4095) (1 : Fin 2) _ _
      concatenates_S8192x1_S8192x4095_S8192x4096_d1 (ix2 r c) rfl
      (ix2 r (⟨0, by decide⟩ : Fin 1)) (fun b => ?_)).trans ?_
    · match b with
      | ⟨0, _⟩ => rfl
      | ⟨1, _⟩ => exact hc.symm
    · rw [val_main_call0_v0_apply]
      refine congrArg x2 (funext fun a => Fin.ext ?_)
      match a with
      | ⟨0, _⟩ => rfl
      | ⟨1, _⟩ => exact (prevCol_zero c hc).symm
  · -- a column c ≥ 1 falls in the 4095-column piece at c - 1
    have hc1 : 1 ≤ c.val := Nat.one_le_iff_ne_zero.mpr hc
    have hlt : c.val - 1 < 4095 := by have := c.isLt; omega
    refine (concatenate_pair_apply_right (t := S8192x4096) (s₁ := S8192x1) (s₂ := S8192x4095) (1 : Fin 2) _ _
      concatenates_S8192x1_S8192x4095_S8192x4096_d1 (ix2 r c) rfl rfl
      (ix2 r (⟨c.val - 1, hlt⟩ : Fin 4095)) (fun b hb => ?_) ?_).trans ?_
    · match b with
      | ⟨0, _⟩ => rfl
      | ⟨1, _⟩ => exact absurd rfl hb
    · show c.val - 1 + 1 = c.val
      omega
    · rw [val_main_call0_v1_apply]
      refine congrArg x2 (funext fun a => Fin.ext ?_)
      match a with
      | ⟨0, _⟩ => rfl
      | ⟨1, _⟩ =>
        show c.val - 1 = (prevCol c).val
        have := prevCol_succ c hc1
        omega

/-- The reference's result array is the spike array of its three arguments. -/
theorem reference_eq (x0 : S8192x256.Idx → EReal) (x1 : S4096x256.Idx → EReal) (x2 : S8192x4096.Idx → EReal) :
    val_main_v7 (F := Ideal) x0 x1 x2 = spike x0 x1 x2 := by
  funext i
  obtain ⟨r, c, rfl⟩ : ∃ (r : Fin 8192) (c : Fin 4096), i = ix2 r c := ⟨i 0, i 1, eq_ix2 i⟩
  have hl : ∀ k : Fin 256, lidx_main_v2 (ix2 r c) k = ix2 r k := fun k =>
    funext fun a => Fin.ext (by match a with | ⟨0, _⟩ => rfl | ⟨1, _⟩ => rfl)
  have hr : ∀ k : Fin 256, idx_main_v1 (ridx_main_v2 (ix2 r c) k) = ix2 c k := fun k =>
    funext fun a => Fin.ext (by match a with | ⟨0, _⟩ => rfl | ⟨1, _⟩ => rfl)
  rw [val_main_v7_apply, val_main_v6_apply, val_main_v4_apply, val_main_v3_apply, val_main_v2_apply, val_main_v5_apply,
    val_main_cst_apply, shifted_apply, spike_ix2]
  simp only [val_main_v1_apply, hl, hr, Ideal.ofBits_def, Ideal.ofBits_zero_f32]
  exact fire_of_tanh_threshold _

end Cert.Reservoir

end
-- ==== Proof.KernelPayload.lean ====
/-
  One block of the kernel. At a grid point the body sees a block `v0` of 512 rows of `x`, the whole weight array
  `v1` and the matching block `v3` of 512 rows of the state, and stores ONE value: the spike indicator of

      (∑ k, v0 p k · v1 q k) + v3 p (q - 1 mod 4096)

  at each `(p, q)` of the block. The matrix product is taken into a zero accumulator, so its entry is the plain sum
  over the contracted axis (axis 1 of both operands). The shifted block is the concatenation, along the columns, of
  the block's last column and its first 4095 columns. The threshold bit is widened to 32 bits and read signed:
  `fire_of_threshold`.
-/
import proofs.«172204_j7430293422555_2_alg».proof.Proof.Gen.KernelIdeal.Skeleton
import proofs.«172204_j7430293422555_2_alg».proof.Proof.Spike
import Idealize.ShloMosaic.Lib.Pipeline.Value
import Idealize.ShloMosaic.Lib.ValueIdx
import Idealize.ShloMosaic.PureOps.Ideal.Laws

noncomputable section

namespace Cert.Reservoir

open Idealize.ShloMosaic Idealize.ShloMosaic.ValueIdx Cert.KernelIdeal Cert.KernelIdeal.Gen

/-! ## The block's matrix product at an entry -/

theorem product_lhs_row (i : S512x4096.Idx) (κ : dot_S512x256_S4096x256_S512x4096_1_1_0_0_n_n.contr.Idx) :
    (dot_S512x256_S4096x256_S512x4096_1_1_0_0_n_n.lhsIdx i κ 0).val = (i 0).val := by
  unfold DotDims.lhsIdx
  rw [dif_neg (show ¬(0 : Fin S512x256.rank) ∈ dot_S512x256_S4096x256_S512x4096_1_1_0_0_n_n.lhsBatch by decide),
    dif_pos (show (0 : Fin S512x256.rank) ∈ dot_S512x256_S4096x256_S512x4096_1_1_0_0_n_n.lhsNonContracting by decide)]
  rfl

theorem product_rhs_row (i : S512x4096.Idx) (κ : dot_S512x256_S4096x256_S512x4096_1_1_0_0_n_n.contr.Idx) :
    (dot_S512x256_S4096x256_S512x4096_1_1_0_0_n_n.rhsIdx i κ 0).val = (i 1).val := by
  unfold DotDims.rhsIdx
  rw [dif_neg (show ¬(0 : Fin S4096x256.rank) ∈ dot_S512x256_S4096x256_S512x4096_1_1_0_0_n_n.rhsBatch by decide),
    dif_pos (show (0 : Fin S4096x256.rank) ∈ dot_S512x256_S4096x256_S512x4096_1_1_0_0_n_n.rhsNonContracting by decide)]
  rfl

/-- Entry `(p, q)` of the block's product: row `p` of the `x` block against row `q` of the weights. -/
theorem block_product_apply (v0 : FVec Ideal S512x256 .f32) (v1 : FVec Ideal S4096x256 .f32) (p : Fin 512) (q : Fin 4096) :
    matmul dot_S512x256_S4096x256_S512x4096_1_1_0_0_n_n none v0 v1 (constant (F := Ideal) S512x4096 .f32 0x00000000#32) (ix2 p q)
      = ∑ k : Fin 256, v0 (ix2 p k) * v1 (ix2 q k) := by
  simp only [matmul]
  rw [Ideal.matmul_constant_zero_apply,
    ← Equiv.sum_comp (ValueIdx.contrEquiv1 dot_S512x256_S4096x256_S512x4096_1_1_0_0_n_n 256 rfl rfl).symm]
  refine Finset.sum_congr rfl fun k _ => ?_
  have hk := ValueIdx.contrEquiv1_symm_val dot_S512x256_S4096x256_S512x4096_1_1_0_0_n_n 256 rfl rfl k
  have el : dot_S512x256_S4096x256_S512x4096_1_1_0_0_n_n.lhsIdx (ix2 p q)
      ((ValueIdx.contrEquiv1 dot_S512x256_S4096x256_S512x4096_1_1_0_0_n_n 256 rfl rfl).symm k) = ix2 p k :=
    funext fun a => Fin.ext (by
      match a with
      | ⟨0, _⟩ => exact product_lhs_row _ _
      | ⟨1, _⟩ => exact (dot_S512x256_S4096x256_S512x4096_1_1_0_0_n_n.lhsIdx_val_of_single rfl _ _).trans hk)
  have er : dot_S512x256_S4096x256_S512x4096_1_1_0_0_n_n.rhsIdx (ix2 p q)
      ((ValueIdx.contrEquiv1 dot_S512x256_S4096x256_S512x4096_1_1_0_0_n_n 256 rfl rfl).symm k) = ix2 q k :=
    funext fun a => Fin.ext (by
      match a with
      | ⟨0, _⟩ => exact product_rhs_row _ _
      | ⟨1, _⟩ => exact (dot_S512x256_S4096x256_S512x4096_1_1_0_0_n_n.rhsIdx_val_of_single rfl _ _).trans hk)
  rw [el, er]

/-! ## The block's shifted state at an entry -/

/-- The concatenation of the block's last column and its first 4095 columns reads, at column `q`, the block at
    column `q - 1 mod 4096`. -/
theorem block_shifted_apply (v3 : FVec Ideal S512x4096 .f32) (p : Fin 512) (q : Fin 4096) :
    concatenate S512x4096 1 [⟨S512x1, extractStridedSlice S512x1 ![0, 4095] v3 slices_S512x4096_o0_4095_S512x1⟩,
        ⟨S512x4095, extractStridedSlice S512x4095 ![0, 0] v3 slices_S512x4096_o0_0_S512x4095⟩]
      concatenates_S512x1_S512x4095_S512x4096_d1 (ix2 p q) = v3 (ix2 p (prevCol q)) := by
  by_cases hq : q.val = 0
  · refine (concatenate_pair_apply_left (t := S512x4096) (s₁ := S512x1) (s₂ := S512x4095) (1 : Fin 2) _ _
      concatenates_S512x1_S512x4095_S512x4096_d1 (ix2 p q) rfl (ix2 p (⟨0, by decide⟩ : Fin 1)) (fun b => ?_)).trans ?_
    · match b with
      | ⟨0, _⟩ => rfl
      | ⟨1, _⟩ => exact hq.symm
    · refine extractStridedSlice_apply _ v3 _ _ (ix2 p (prevCol q)) (fun a => ?_)
      match a with
      | ⟨0, _⟩ => show p.val = 0 + p.val; omega
      | ⟨1, _⟩ => show (prevCol q).val = 4095 + 0; rw [prevCol_zero q hq]
  · have hq1 : 1 ≤ q.val := Nat.one_le_iff_ne_zero.mpr hq
    have hlt : q.val - 1 < 4095 := by have := q.isLt; omega
    refine (concatenate_pair_apply_right (t := S512x4096) (s₁ := S512x1) (s₂ := S512x4095) (1 : Fin 2) _ _
      concatenates_S512x1_S512x4095_S512x4096_d1 (ix2 p q) rfl rfl (ix2 p (⟨q.val - 1, hlt⟩ : Fin 4095)) (fun b hb => ?_) ?_).trans ?_
    · match b with
      | ⟨0, _⟩ => rfl
      | ⟨1, _⟩ => exact absurd rfl hb
    · show q.val - 1 + 1 = q.val
      omega
    · refine extractStridedSlice_apply _ v3 _ _ (ix2 p (prevCol q)) (fun a => ?_)
      match a with
      | ⟨0, _⟩ => show p.val = 0 + p.val; omega
      | ⟨1, _⟩ =>
        show (prevCol q).val = 0 + (q.val - 1)
        have := prevCol_succ q hq1
        omega

/-! ## The stored value at an entry -/

/-- What the body stores at `(p, q)` of its output block: the spike indicator of the block's pre-activation there. -/
theorem block_spike_apply (v0 : Vec Ideal S512x256 .f32) (v1 : Vec Ideal S4096x256 .f32) (v3 : Vec Ideal S512x4096 .f32)
    (p : Fin 512) (q : Fin 4096) :
    k0_pay1 (F := Ideal) v0 v1 v3 (ix2 p q)
      = fire ((∑ k : Fin 256, v0 (ix2 p k) * v1 (ix2 q k)) + v3 (ix2 p (prevCol q))) := by
  have h1 := block_product_apply v0 v1 p q
  have h2 := block_shifted_apply v3 p q
  have hz : Scalar.ofBits (F := Ideal) .f32 0x00000000#32 = (0 : EReal) := Ideal.ofBits_zero_f32
  unfold k0_pay1
  simp only [sitofp_apply, extui_apply, cmpf_apply, addf_apply, broadcast_apply]
  rw [h1, h2, hz]
  exact fire_of_threshold _

end Cert.Reservoir

end
-- ==== Proof.KernelValue.lean ====
/-
  From the blocks to the whole output array. The grid has 16 points; point `t` works on rows `512·t … 512·t + 511`:
  its `x` block and its state block are those rows of the two arrays, the weight block is the whole weight array,
  and the block it writes back is those rows of the output. A block's entry `(p, q)` therefore sits at the array's
  `(512·t + p, q)`, and since the circular shift runs along a row, which a block holds whole, what point `t` writes
  back is exactly block `t` of the spike array of `Spike.lean`. The 16 blocks tile the 8192 rows (row `r` lies in
  block `r / 512`), so after the run the output array IS the spike array of the three arguments.
-/
import proofs.«172204_j7430293422555_2_alg».proof.Proof.Gen.KernelIdeal.Value
import proofs.«172204_j7430293422555_2_alg».proof.Proof.KernelPayload

noncomputable section

namespace Cert.Reservoir

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 16 grid points: the `x`, state and output windows take row-block `t` at point
    `t`, column-block 0; the weight window always takes block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s blocks is row `512·t + p` of the arrays. -/
def arrayRow (t : Fin cfg0.N) (p : Fin 512) : Fin 8192 :=
  ⟨t.val * 512 + p.val, by have h : t.val < 16 := t.isLt; have := p.isLt; omega⟩

/-- The `x` block at a point: rows `512·t …` of `x`. -/
theorem x_block_apply (c : Dev nD) (t : Fin cfg0.N) (p : Fin 512) (k : Fin 256) :
    iblk m c 0 t (ix2 p k) = V m c main_arg0 (ix2 (arrayRow t p) k) := by
  obtain ⟨e0, e1, -⟩ := index_facts t
  show V m c main_arg0 (((cfg0.win 0).blk t).view.emb (ix2 p k)) = V m c main_arg0 (ix2 (arrayRow t p) k)
  refine congrArg (V m c main_arg0) (funext fun a => Fin.ext ?_)
  match a with
  | ⟨0, _⟩ => show win0_0.index t (0 : Fin 2) * 512 + 1 * p.val = t.val * 512 + p.val; omega
  | ⟨1, _⟩ => show win0_0.index t (1 : Fin 2) * 256 + 1 * k.val = k.val; omega

/-- The weight block at every point: the whole weight array. -/
theorem w_block_apply (c : Dev nD) (t : Fin cfg0.N) (q : Fin 4096) (k : Fin 256) :
    iblk m c 1 t (ix2 q k) = V m c main_arg1 (ix2 q k) := by
  obtain ⟨-, -, e0, e1, -⟩ := index_facts t
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 4096 + 1 * q.val = q.val; omega
  | ⟨1, _⟩ => show win0_1.index t (1 : Fin 2) * 256 + 1 * k.val = k.val; omega

/-- The state block at a point: rows `512·t …` of the state, every column. -/
theorem s_block_apply (c : Dev nD) (t : Fin cfg0.N) (p : Fin 512) (q : Fin 4096) :
    iblk m c 2 t (ix2 p q) = V m c main_arg2 (ix2 (arrayRow t p) q) := by
  obtain ⟨-, -, -, -, e0, e1, -⟩ := index_facts t
  show V m c main_arg2 (((cfg0.win 2).blk t).view.emb (ix2 p q)) = V m c main_arg2 (ix2 (arrayRow t p) q)
  refine congrArg (V m c main_arg2) (funext fun a => Fin.ext ?_)
  match a with
  | ⟨0, _⟩ => show win0_2.index t (0 : Fin 2) * 512 + 1 * p.val = t.val * 512 + p.val; omega
  | ⟨1, _⟩ => show win0_2.index t (1 : Fin 2) * 4096 + 1 * q.val = q.val; omega

/-- Entry `(p, q)` of the output block at a point sits at `(512·t + p, q)` of the output array. -/
theorem out_block_emb (t : Fin cfg0.N) (p : Fin 512) (q : Fin 4096) :
    ((cfg0.win 3).blk t).view.emb (ix2 p q) = ix2 (arrayRow t p) q := by
  obtain ⟨-, -, -, -, -, -, e0, e1⟩ := index_facts t
  refine funext fun a => Fin.ext ?_
  match a with
  | ⟨0, _⟩ => show win0_3.index t (0 : Fin 2) * 512 + 1 * p.val = t.val * 512 + p.val; omega
  | ⟨1, _⟩ => show win0_3.index t (1 : Fin 2) * 4096 + 1 * q.val = q.val; omega

/-- What point `t` writes back is block `t` of the spike array of the arrays as the region finds them. -/
theorem flushed_eq (c : Dev nD) (t : Fin cfg0.N) :
    (dats m 0 c).flushed 3 t
      = ((cfg0.win 3).blk t).view.read (Elt Ideal) (spike (V m c main_arg0) (V m c main_arg1) (V m c main_arg2)) := by
  rw [Cert.KernelIdeal.Value.flushed3]
  unfold out0_3
  rw [View.canon_unit_zero origin]
  simp only [View.ld_unit_zero (S := S512x256) origin, View.ld_unit_zero (S := S4096x256) origin,
    View.ld_unit_zero (S := S512x4096) origin]
  funext j
  obtain ⟨p, q, rfl⟩ : ∃ (p : Fin 512) (q : Fin 4096), j = ix2 p q := ⟨j 0, j 1, eq_ix2 j⟩
  show k0_pay1 (F := Ideal) (iblk m c 0 t) (iblk m c 1 t) (iblk m c 2 t) (ix2 p q)
    = spike (V m c main_arg0) (V m c main_arg1) (V m c main_arg2) (((cfg0.win 3).blk t).view.emb (ix2 p q))
  rw [block_spike_apply, out_block_emb, spike_ix2, s_block_apply]
  unfold drive
  refine congrArg fire (congrArg (· + _) (Finset.sum_congr rfl fun k _ => ?_))
  rw [x_block_apply, w_block_apply]

/-- An index of the output array is in point `t`'s block iff each coordinate is in the block's range on its axis. -/
theorem mem_out_block (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v0).slice (win0_3.rect t)).set ↔ _
  rw [View.set_slice_whole, Rect.mem_set_unit]
  exact Iff.rfl

/-- Every index of the output array lies in the block of the point its row falls in. -/
theorem out_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  let t : Fin cfg0.N := ⟨(i 0).val / 512, by rw [hN]; omega⟩
  have ht : t.val = (i 0).val / 512 := rfl
  obtain ⟨-, -, -, -, -, -, e0, e1⟩ := index_facts t
  refine ⟨t, flush0_3 t, ?_⟩
  rw [mem_out_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- After the run the output array is the spike array of the three arguments as launched. -/
theorem final (c : Dev nD) :
    (dats m 0 c).arrAt 3 cfg0.N = spike (m ((c : Thread nD τ).loc main_arg0)) (m ((c : Thread nD τ).loc main_arg1))
      (m ((c : Thread nD τ).loc main_arg2)) :=
  (dats m 0 c).arrAt_eq_of_cover 3 _ (fun t _ => flushed_eq m c t) out_cover

/-- The kernel's run with the output array named: the spike array of the arguments, the arguments unchanged. -/
theorem kernel_run : θ_run defs (onTc (τ := τ) (main (F := Ideal))) ⟨m, fun _ => 0, ρ⟩ fun r => ∀ c : Dev nD,
      r.2.mem ((c : Thread nD τ).loc main_v0) = spike (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Reservoir

end
-- ==== Proof.lean ====
/-
  A reservoir step: the kernel computes `[x · wᵀ + roll(state, 1) > 0]` block by block over 16 blocks of 512 rows,
  the reference computes `[tanh (x · wᵀ + roll(state, 1)) > 0]` on the whole arrays. On the extended reals both are
  the spike array of `Proof/Spike.lean`: `tanh` is positive exactly where its argument is, at the infinities too, so
  the two thresholds agree everywhere and the inputs' finiteness is never used.
    * `Proof/Spike.lean`         — the spike array, and the two scalar laws (threshold through `tanh`; a bit as a float);
    * `Proof/RefSide.lean`       — the reference's result is the spike array;
    * `Proof/KernelPayload.lean` — what the kernel stores at an entry of a block;
    * `Proof/KernelValue.lean`   — the blocks tile the output, so the kernel's result is the spike array.
  The three frames are the generated ones (the reference's is its run with the result dropped); the idealization
  rewrote nothing, so `preserves` is trivial.
-/
import proofs.«172204_j7430293422555_2_alg».proof.Defs
import proofs.«172204_j7430293422555_2_alg».proof.Proof.Gen.Kernel
import proofs.«172204_j7430293422555_2_alg».proof.Proof.Gen.Kernel.Skeleton
import proofs.«172204_j7430293422555_2_alg».proof.Proof.Gen.Kernel.Launch
import proofs.«172204_j7430293422555_2_alg».proof.Proof.Gen.Kernel.Points
import proofs.«172204_j7430293422555_2_alg».proof.Proof.Gen.Kernel.Frame
import proofs.«172204_j7430293422555_2_alg».proof.Proof.Gen.KernelIdeal
import proofs.«172204_j7430293422555_2_alg».proof.Proof.Gen.KernelIdeal.Skeleton
import proofs.«172204_j7430293422555_2_alg».proof.Proof.Gen.KernelIdeal.Launch
import proofs.«172204_j7430293422555_2_alg».proof.Proof.Gen.KernelIdeal.Points
import proofs.«172204_j7430293422555_2_alg».proof.Proof.Gen.KernelIdeal.Frame
import proofs.«172204_j7430293422555_2_alg».proof.Proof.Gen.ReferenceIdeal
import proofs.«172204_j7430293422555_2_alg».proof.Proof.Gen.KernelIdeal.Value
import proofs.«172204_j7430293422555_2_alg».proof.Proof.Gen.ReferenceIdeal.Run
import proofs.«172204_j7430293422555_2_alg».proof.Proof.Gen.ReferenceIdeal.Read
import proofs.«172204_j7430293422555_2_alg».proof.Proof.Gen.Pre_finite_inputs
import proofs.«172204_j7430293422555_2_alg».proof.Proof.RefSide
import proofs.«172204_j7430293422555_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the spike array of the (agreeing) arguments. -/
theorem algebraic : Cert.algebraic_KernelIdeal_ReferenceIdeal := by
  intro m ρ m' ρ' _ hagree
  refine ⟨_, Cert.Reservoir.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.Reservoir.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
